-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 85
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000, .i32⟩
  | .hbm, ⟨66, _⟩ => ⟨S1700000, .i32⟩
  | .hbm, ⟨67, _⟩ => ⟨S1700000, .i32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x128, .f32⟩
  | .hbm, ⟨103, _⟩ => ⟨S1700000x1, .f32⟩
  | .hbm, ⟨104, _⟩ => ⟨S1700000x128, .f32⟩
  | .hbm, ⟨105, _⟩ => ⟨S1700000x128, .f32⟩
  | .hbm, ⟨106, _⟩ => ⟨S_, .f32⟩
  | .hbm, ⟨107, _⟩ => ⟨S100000x128, .f32⟩
  | .hbm, ⟨108, _⟩ => ⟨S1700000x1, .i32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S_, .f32⟩
  | .hbm, ⟨114, _⟩ => ⟨S100000x128, .f32⟩
  | .hbm, ⟨115, _⟩ => ⟨S100000x128, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
import proofs.«167802_j54176717472198_1_alg».proof.Proof.Gen.KernelIdeal.Frame

/-!
# The kernel's program run, with its result named

The program is seven stretches in a row: host operations, a Pallas call, host operations, a call, host
operations, a call, host operations. The generated frame threads the buffer contents through them as a fold
(`Gen.W0` … `Gen.W7`: after a host stretch the operations' results over the previous contents; after a call its
arrays at what its write-backs leave, everything else as before). Every weakly fair execution terminates with
EVERY unscoped buffer at the last fold `Gen.W7`; read at the result buffer this names the program's result, and
read at the arguments it gives them back unchanged.
-/

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    fold's contents and the argument arrays as launched. -/
theorem run_result : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunV

end
-- ==== Proof.Lin0.lean ====
import proofs.«167802_j54176717472198_1_alg».proof.Proof.Gen.KernelIdeal.Frame
import proofs.«167802_j54176717472198_1_alg».proof.Proof.Gen.ReferenceIdeal.Read
import Idealize.ShloMosaic.Lib.Pipeline.Value
import Idealize.ShloMosaic.Lib.ValueIdx
import Idealize.ShloMosaic.PureOps.Ideal.Laws

/-!
# Pallas call 0: the array it leaves is one matrix product

The call walks twenty blocks of 5000 rows. At a block the body loads the 5000×128 rows and the whole 128×128
weight, multiplies them into a zero accumulator and stores the 5000×128 product. Over the
extended reals (where rounding to bf16 is the identity) an entry of the stored block is
`∑ k, x (r, k) * w (k, c)`. Row `r` of block `t` is row `5000 t + r` of the array, the weight's one block is
the whole weight, and the twenty row blocks tile the 100000 rows; so the output array is, entry by entry, the
host's contraction of the rows with the weight.
-/

set_option maxRecDepth 16384

noncomputable section

namespace Cert.KernelIdeal.Lin0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offsets of the body's whole-buffer accesses are zero. -/
theorem off_zero : (![0, 0] : Fin 2 → Nat) = fun _ => 0 := funext fun a => by fin_cases a <;> rfl

/-- The row operand's index for output index `j` and contraction index `k`: row of `j`, column `k`. -/
abbrev rowIdx (j : S5000x128.Idx) (k : Fin 128) : S5000x128.Idx := fun a => match a with
  | ⟨0, _⟩ => ⟨(j 0).val, (j 0).isLt⟩
  | ⟨1, _⟩ => ⟨k.val, k.isLt⟩
/-- The weight's index: row `k`, column of `j`. -/
abbrev colIdx (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- An entry of the product into the zero accumulator is the sum over the contracted axis. -/
theorem matmul_entry (a : FVec Ideal S5000x128 .bf16) (b : FVec Ideal S128x128 .bf16) (j : S5000x128.Idx) :
    FloatOps.matmul dot_S5000x128_S128x128_S5000x128_1_0_0_1_n_n none a b (constant S5000x128 .f32 0x00000000#32) j
      = ∑ k : Fin 128, a (rowIdx j k) * b (colIdx j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowIdx j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = colIdx j k := funext fun a => Fin.ext (by
    match a with
    | ⟨0, _⟩ => exact (rhs_0 _ _).trans hk
    | ⟨1, _⟩ => exact rhs_1 _ _)
  rw [el, er]

/-- The body's stored value at an entry: the contraction of the loaded rows with the loaded weight. -/
theorem payload_entry (x : Vec Ideal S5000x128 .f32) (w : Vec Ideal S128x128 .f32) (j : S5000x128.Idx) :
    k0_pay1 (F := Ideal) x w j = ∑ k : Fin 128, x (rowIdx j k) * w (colIdx j k) := by
  unfold k0_pay1
  refine (matmul_entry _ _ j).trans ?_
  rfl

/-- The host's contraction read at an entry: the same sum, over the whole arrays. -/
theorem host_entry (a : FVec Ideal Cert.ReferenceIdeal.S100000x128 .f32) (w : FVec Ideal Cert.ReferenceIdeal.S128x128 .f32)
    (i : Cert.ReferenceIdeal.S100000x128.Idx) :
    Host.dotGeneral (F := Ideal) Cert.ReferenceIdeal.dot_S100000x128_S128x128_S100000x128_1_0_0_1_n_n none a w i
      = ∑ k : Fin 128, a (Cert.ReferenceIdeal.Read.lidx_main_v4 i k) * w (Cert.ReferenceIdeal.Read.ridx_main_v4 i k) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = Cert.ReferenceIdeal.Read.lidx_main_v4 i k := funext fun a => Fin.ext (by
    match a with
    | ⟨0, _⟩ => exact Cert.ReferenceIdeal.Read.lhs_main_v4_0 _ _
    | ⟨1, _⟩ => exact (Cert.ReferenceIdeal.Read.lhs_main_v4_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = Cert.ReferenceIdeal.Read.ridx_main_v4 i k := funext fun a => Fin.ext (by
    match a with
    | ⟨0, _⟩ => exact (Cert.ReferenceIdeal.Read.rhs_main_v4_0 _ _).trans hk
    | ⟨1, _⟩ => exact Cert.ReferenceIdeal.Read.rhs_main_v4_1 _ _)
  rw [el, er]

/-- The function the output array ends holding: the host's contraction of the rows with the weight. -/
abbrev target (a : FVec Ideal Cert.ReferenceIdeal.S100000x128 .f32) (w : FVec Ideal Cert.ReferenceIdeal.S128x128 .f32) :
    FVec Ideal Cert.ReferenceIdeal.S100000x128 .f32 :=
  Host.dotGeneral (F := Ideal) Cert.ReferenceIdeal.dot_S100000x128_S128x128_S100000x128_1_0_0_1_n_n none a w

/-- The grid's index maps: the row windows sit at block row `t`, block column 0; the weight window at (0, 0). -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block row is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the host's contraction of the arrays the call finds. -/
theorem flushed_eq (c : Dev nD) (t : Fin cfg0.N) :
    (dat0 V c).flushed 2 t = ((cfg0.win 2).blk t).view.read (Elt Ideal) (target (V c main_arg0) (V c main_arg2)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e0, e1, e2, e3, e4, e5⟩ := idx_facts t
  funext j
  show k0_pay1 (iblk0 V c 0 t) (iblk0 V c 1 t) j = target (V c main_arg0) (V c main_arg2) (((cfg0.win 2).blk t).view.emb j)
  refine (payload_entry _ _ j).trans ((host_entry _ _ _).trans ?_).symm
  refine Finset.sum_congr rfl fun k _ => ?_
  have hj0 : (j 0).val < 5000 := (j 0).isLt
  have hj1 : (j 1).val < 128 := (j 1).isLt
  have hk : k.val < 128 := k.isLt
  have hx : ((cfg0.win 0).blk t).view.emb (rowIdx j k) = Cert.ReferenceIdeal.Read.lidx_main_v4 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (colIdx j k) = Cert.ReferenceIdeal.Read.ridx_main_v4 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have h0 : iblk0 V c 0 t (rowIdx j k) = (V c main_arg0 : FVec Ideal S100000x128 .f32) (Cert.ReferenceIdeal.Read.lidx_main_v4 (((cfg0.win 2).blk t).view.emb j) k) := by
    show (V c main_arg0 : FVec Ideal S100000x128 .f32) (((cfg0.win 0).blk t).view.emb (rowIdx j k)) = _
    rw [hx]
  have h1 : iblk0 V c 1 t (colIdx j k) = (V c main_arg2 : FVec Ideal S128x128 .f32) (Cert.ReferenceIdeal.Read.ridx_main_v4 (((cfg0.win 2).blk t).view.emb j) k) := by
    show (V c main_arg2 : FVec Ideal S128x128 .f32) (((cfg0.win 1).blk t).view.emb (colIdx j k)) = _
    rw [hw]
  rw [h0, h1]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the output array lies in some point's block: row `r` in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the call: the host's contraction of the arrays the call finds. -/
theorem array_eq (c : Dev nD) : (dat0 V c).arrAt 2 cfg0.N = target (V c main_arg0) (V c main_arg2) :=
  (dat0 V c).arrAt_eq_of_cover 2 (target (V c main_arg0) (V c main_arg2)) (fun t _ => flushed_eq V c t) cover

end Cert.KernelIdeal.Lin0

end
-- ==== Proof.Lin1.lean ====
import proofs.«167802_j54176717472198_1_alg».proof.Proof.Gen.KernelIdeal.Frame
import proofs.«167802_j54176717472198_1_alg».proof.Proof.Gen.ReferenceIdeal.Read
import Idealize.ShloMosaic.Lib.Pipeline.Value
import Idealize.ShloMosaic.Lib.ValueIdx
import Idealize.ShloMosaic.PureOps.Ideal.Laws

/-!
# Pallas call 1: the array it leaves is one matrix product

The call walks twenty blocks of 5000 rows. At a block the body loads the 5000×128 rows and the whole 128×128
weight, clamps the rows below at zero, multiplies them into a zero accumulator and stores the 5000×128 product. Over the
extended reals (where rounding to bf16 is the identity) an entry of the stored block is
`∑ k, max (x (r, k)) 0 * w (k, c)`. Row `r` of block `t` is row `5000 t + r` of the array, the weight's one block is
the whole weight, and the twenty row blocks tile the 100000 rows; so the output array is, entry by entry, the
host's contraction of the clamped rows with the weight.
-/

set_option maxRecDepth 16384

noncomputable section

namespace Cert.KernelIdeal.Lin1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offsets of the body's whole-buffer accesses are zero. -/
theorem off_zero : (![0, 0] : Fin 2 → Nat) = fun _ => 0 := funext fun a => by fin_cases a <;> rfl

/-- The row operand's index for output index `j` and contraction index `k`: row of `j`, column `k`. -/
abbrev rowIdx (j : S5000x128.Idx) (k : Fin 128) : S5000x128.Idx := fun a => match a with
  | ⟨0, _⟩ => ⟨(j 0).val, (j 0).isLt⟩
  | ⟨1, _⟩ => ⟨k.val, k.isLt⟩
/-- The weight's index: row `k`, column of `j`. -/
abbrev colIdx (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- An entry of the product into the zero accumulator is the sum over the contracted axis. -/
theorem matmul_entry (a : FVec Ideal S5000x128 .bf16) (b : FVec Ideal S128x128 .bf16) (j : S5000x128.Idx) :
    FloatOps.matmul dot_S5000x128_S128x128_S5000x128_1_0_0_1_n_n none a b (constant S5000x128 .f32 0x00000000#32) j
      = ∑ k : Fin 128, a (rowIdx j k) * b (colIdx j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowIdx j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = colIdx j k := funext fun a => Fin.ext (by
    match a with
    | ⟨0, _⟩ => exact (rhs_0 _ _).trans hk
    | ⟨1, _⟩ => exact rhs_1 _ _)
  rw [el, er]

/-- The body's stored value at an entry: the contraction of the loaded rows, clamped at zero, with the loaded weight. -/
theorem payload_entry (x : Vec Ideal S5000x128 .f32) (w : Vec Ideal S128x128 .f32) (j : S5000x128.Idx) :
    k1_pay1 (F := Ideal) x w j = ∑ k : Fin 128, max (x (rowIdx j k)) (Ideal.ofBits .f32 0x00000000#32) * w (colIdx j k) := by
  unfold k1_pay1
  refine (matmul_entry _ _ j).trans ?_
  rw [shapeCast_self]
  rfl

/-- The host's contraction read at an entry: the same sum, over the whole arrays. -/
theorem host_entry (a : FVec Ideal Cert.ReferenceIdeal.S100000x128 .f32) (w : FVec Ideal Cert.ReferenceIdeal.S128x128 .f32)
    (i : Cert.ReferenceIdeal.S100000x128.Idx) :
    Host.dotGeneral (F := Ideal) Cert.ReferenceIdeal.dot_S100000x128_S128x128_S100000x128_1_0_0_1_n_n none a w i
      = ∑ k : Fin 128, a (Cert.ReferenceIdeal.Read.lidx_main_v45 i k) * w (Cert.ReferenceIdeal.Read.ridx_main_v45 i k) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = Cert.ReferenceIdeal.Read.lidx_main_v45 i k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = Cert.ReferenceIdeal.Read.ridx_main_v45 i k := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-- The function the output array ends holding: the host's contraction of the clamped rows with the weight. -/
abbrev target (a : FVec Ideal Cert.ReferenceIdeal.S100000x128 .f32) (w : FVec Ideal Cert.ReferenceIdeal.S128x128 .f32) :
    FVec Ideal Cert.ReferenceIdeal.S100000x128 .f32 :=
  Host.dotGeneral (F := Ideal) Cert.ReferenceIdeal.dot_S100000x128_S128x128_S100000x128_1_0_0_1_n_n none (maximumf a (Cert.ReferenceIdeal.Read.val_main_call0_v0 (F := Ideal))) w

/-- The grid's index maps: the row windows sit at block row `t`, block column 0; the weight window at (0, 0). -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every block row is some point's. -/
theorem idx_onto : ∀ q : Fin 20, ∃ t : Fin cfg1.N, win1_2.index t = ![q.val, 0] :=
  (by decide +kernel : ∀ q : Fin 20, ∃ t : Fin grid1.N, win1_2.index t = ![q.val, 0])

/-- What point `t` writes back is block `t` of the host's contraction of the arrays the call finds. -/
theorem flushed_eq (c : Dev nD) (t : Fin cfg1.N) :
    (dat1 V c).flushed 2 t = ((cfg1.win 2).blk t).view.read (Elt Ideal) (target (V c main_v43) (V c main_arg4)) := by
  show (cfg1.win 2).cut (grid1.coords t) ((dat1 V c).after 2 t) = _
  rw [after1_2]
  unfold out1_2
  rw [View.canon_unit_zero off_zero]
  simp only [View.ld_unit_zero (S := S5000x128) off_zero, View.ld_unit_zero (S := S128x128) off_zero]
  obtain ⟨e0, e1, e2, e3, e4, e5⟩ := idx_facts t
  funext j
  show k1_pay1 (iblk1 V c 0 t) (iblk1 V c 1 t) j = target (V c main_v43) (V c main_arg4) (((cfg1.win 2).blk t).view.emb j)
  refine (payload_entry _ _ j).trans ((host_entry _ _ _).trans ?_).symm
  refine Finset.sum_congr rfl fun k _ => ?_
  have hj0 : (j 0).val < 5000 := (j 0).isLt
  have hj1 : (j 1).val < 128 := (j 1).isLt
  have hk : k.val < 128 := k.isLt
  have hx : ((cfg1.win 0).blk t).view.emb (rowIdx j k) = Cert.ReferenceIdeal.Read.lidx_main_v45 (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : ((cfg1.win 1).blk t).view.emb (colIdx j k) = Cert.ReferenceIdeal.Read.ridx_main_v45 (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  have h0 : iblk1 V c 0 t (rowIdx j k) = (V c main_v43 : FVec Ideal S100000x128 .f32) (Cert.ReferenceIdeal.Read.lidx_main_v45 (((cfg1.win 2).blk t).view.emb j) k) := by
    show (V c main_v43 : FVec Ideal S100000x128 .f32) (((cfg1.win 0).blk t).view.emb (rowIdx j k)) = _
    rw [hx]
  have h1 : iblk1 V c 1 t (colIdx j k) = (V c main_arg4 : FVec Ideal S128x128 .f32) (Cert.ReferenceIdeal.Read.ridx_main_v45 (((cfg1.win 2).blk t).view.emb j) k) := by
    show (V c main_arg4 : FVec Ideal S128x128 .f32) (((cfg1.win 1).blk t).view.emb (colIdx j k)) = _
    rw [hw]
  rw [h0, h1]
  rfl

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every index of the output array lies in some point's block: row `r` in block `r / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the call: the host's contraction of the arrays the call finds. -/
theorem array_eq (c : Dev nD) : (dat1 V c).arrAt 2 cfg1.N = target (V c main_v43) (V c main_arg4) :=
  (dat1 V c).arrAt_eq_of_cover 2 (target (V c main_v43) (V c main_arg4)) (fun t _ => flushed_eq V c t) cover

end Cert.KernelIdeal.Lin1

end
-- ==== Proof.Lin2.lean ====
import proofs.«167802_j54176717472198_1_alg».proof.Proof.Gen.KernelIdeal.Frame
import proofs.«167802_j54176717472198_1_alg».proof.Proof.Gen.ReferenceIdeal.Read
import Idealize.ShloMosaic.Lib.Pipeline.Value
import Idealize.ShloMosaic.Lib.ValueIdx
import Idealize.ShloMosaic.PureOps.Ideal.Laws

/-!
# Pallas call 2: the array it leaves is one matrix product

The call walks twenty blocks of 5000 rows. At a block the body loads the 5000×128 rows and the whole 128×64
weight, clamps the rows below at zero, multiplies them into a zero accumulator and stores the 5000×64 product. Over the
extended reals (where rounding to bf16 is the identity) an entry of the stored block is
`∑ k, max (x (r, k)) 0 * w (k, c)`. Row `r` of block `t` is row `5000 t + r` of the array, the weight's one block is
the whole weight, and the twenty row blocks tile the 100000 rows; so the output array is, entry by entry, the
host's contraction of the clamped rows with the weight.
-/

set_option maxRecDepth 16384

noncomputable section

namespace Cert.KernelIdeal.Lin2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offsets of the body's whole-buffer accesses are zero. -/
theorem off_zero : (![0, 0] : Fin 2 → Nat) = fun _ => 0 := funext fun a => by fin_cases a <;> rfl

/-- The row operand's index for output index `j` and contraction index `k`: row of `j`, column `k`. -/
abbrev rowIdx (j : S5000x64.Idx) (k : Fin 128) : S5000x128.Idx := fun a => match a with
  | ⟨0, _⟩ => ⟨(j 0).val, (j 0).isLt⟩
  | ⟨1, _⟩ => ⟨k.val, k.isLt⟩
/-- The weight's index: row `k`, column of `j`. -/
abbrev colIdx (j : S5000x64.Idx) (k : Fin 128) : S128x64.Idx := fun a => match a with
  | ⟨0, _⟩ => ⟨k.val, k.isLt⟩
  | ⟨1, _⟩ => ⟨(j 1).val, (j 1).isLt⟩

theorem lhs_0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- An entry of the product into the zero accumulator is the sum over the contracted axis. -/
theorem matmul_entry (a : FVec Ideal S5000x128 .bf16) (b : FVec Ideal S128x64 .bf16) (j : S5000x64.Idx) :
    FloatOps.matmul dot_S5000x128_S128x64_S5000x64_1_0_0_1_n_n none a b (constant S5000x64 .f32 0x00000000#32) j
      = ∑ k : Fin 128, a (rowIdx j k) * b (colIdx j k) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowIdx j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = colIdx j k := funext fun a => Fin.ext (by
    match a with
    | ⟨0, _⟩ => exact (rhs_0 _ _).trans hk
    | ⟨1, _⟩ => exact rhs_1 _ _)
  rw [el, er]

/-- The body's stored value at an entry: the contraction of the loaded rows, clamped at zero, with the loaded weight. -/
theorem payload_entry (x : Vec Ideal S5000x128 .f32) (w : Vec Ideal S128x64 .f32) (j : S5000x64.Idx) :
    k2_pay1 (F := Ideal) x w j = ∑ k : Fin 128, max (x (rowIdx j k)) (Ideal.ofBits .f32 0x00000000#32) * w (colIdx j k) := by
  unfold k2_pay1
  refine (matmul_entry _ _ j).trans ?_
  rw [shapeCast_self]
  rfl

/-- The host's contraction read at an entry: the same sum, over the whole arrays. -/
theorem host_entry (a : FVec Ideal Cert.ReferenceIdeal.S100000x128 .f32) (w : FVec Ideal Cert.ReferenceIdeal.S128x64 .f32)
    (i : Cert.ReferenceIdeal.S100000x64.Idx) :
    Host.dotGeneral (F := Ideal) Cert.ReferenceIdeal.dot_S100000x128_S128x64_S100000x64_1_0_0_1_n_n none a w i
      = ∑ k : Fin 128, a (Cert.ReferenceIdeal.Read.lidx_main_v86 i k) * w (Cert.ReferenceIdeal.Read.ridx_main_v86 i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.Read.lidx_main_v86 i k := funext fun a => Fin.ext (by
    match a with
    | ⟨0, _⟩ => exact Cert.ReferenceIdeal.Read.lhs_main_v86_0 _ _
    | ⟨1, _⟩ => exact (Cert.ReferenceIdeal.Read.lhs_main_v86_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.Read.ridx_main_v86 i k := funext fun a => Fin.ext (by
    match a with
    | ⟨0, _⟩ => exact (Cert.ReferenceIdeal.Read.rhs_main_v86_0 _ _).trans hk
    | ⟨1, _⟩ => exact Cert.ReferenceIdeal.Read.rhs_main_v86_1 _ _)
  rw [el, er]

/-- The function the output array ends holding: the host's contraction of the clamped rows with the weight. -/
abbrev target (a : FVec Ideal Cert.ReferenceIdeal.S100000x128 .f32) (w : FVec Ideal Cert.ReferenceIdeal.S128x64 .f32) :
    FVec Ideal Cert.ReferenceIdeal.S100000x64 .f32 :=
  Host.dotGeneral (F := Ideal) Cert.ReferenceIdeal.dot_S100000x128_S128x64_S100000x64_1_0_0_1_n_n none (maximumf a (Cert.ReferenceIdeal.Read.val_main_call1_v0 (F := Ideal))) w

/-- The grid's index maps: the row windows sit at block row `t`, block column 0; the weight window at (0, 0). -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block row is some point's. -/
theorem idx_onto : ∀ q : Fin 20, ∃ t : Fin cfg2.N, win2_2.index t = ![q.val, 0] :=
  (by decide +kernel : ∀ q : Fin 20, ∃ t : Fin grid2.N, win2_2.index t = ![q.val, 0])

/-- What point `t` writes back is block `t` of the host's contraction of the arrays the call finds. -/
theorem flushed_eq (c : Dev nD) (t : Fin cfg2.N) :
    (dat2 V c).flushed 2 t = ((cfg2.win 2).blk t).view.read (Elt Ideal) (target (V c main_v60) (V c main_arg6)) := by
  show (cfg2.win 2).cut (grid2.coords t) ((dat2 V c).after 2 t) = _
  rw [after2_2]
  unfold out2_2
  rw [View.canon_unit_zero off_zero]
  simp only [View.ld_unit_zero (S := S5000x128) off_zero, View.ld_unit_zero (S := S128x64) off_zero]
  obtain ⟨e0, e1, e2, e3, e4, e5⟩ := idx_facts t
  funext j
  show k2_pay1 (iblk2 V c 0 t) (iblk2 V c 1 t) j = target (V c main_v60) (V c main_arg6) (((cfg2.win 2).blk t).view.emb j)
  refine (payload_entry _ _ j).trans ((host_entry _ _ _).trans ?_).symm
  refine Finset.sum_congr rfl fun k _ => ?_
  have hj0 : (j 0).val < 5000 := (j 0).isLt
  have hj1 : (j 1).val < 64 := (j 1).isLt
  have hk : k.val < 128 := k.isLt
  have hx : ((cfg2.win 0).blk t).view.emb (rowIdx j k) = Cert.ReferenceIdeal.Read.lidx_main_v86 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (colIdx j k) = Cert.ReferenceIdeal.Read.ridx_main_v86 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  have h0 : iblk2 V c 0 t (rowIdx j k) = (V c main_v60 : FVec Ideal S100000x128 .f32) (Cert.ReferenceIdeal.Read.lidx_main_v86 (((cfg2.win 2).blk t).view.emb j) k) := by
    show (V c main_v60 : FVec Ideal S100000x128 .f32) (((cfg2.win 0).blk t).view.emb (rowIdx j k)) = _
    rw [hx]
  have h1 : iblk2 V c 1 t (colIdx j k) = (V c main_arg6 : FVec Ideal S128x64 .f32) (Cert.ReferenceIdeal.Read.ridx_main_v86 (((cfg2.win 2).blk t).view.emb j) k) := by
    show (V c main_arg6 : FVec Ideal S128x64 .f32) (((cfg2.win 1).blk t).view.emb (colIdx j k)) = _
    rw [hw]
  rw [h0, h1]
  rfl

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v61).slice (win2_2.rect t)).set ↔ _
  rw [View.set_slice_whole, Rect.mem_set_unit]
  exact Iff.rfl

/-- Every index of the output array lies in some point's block: row `r` in block `r / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the call: the host's contraction of the arrays the call finds. -/
theorem array_eq (c : Dev nD) : (dat2 V c).arrAt 2 cfg2.N = target (V c main_v60) (V c main_arg6) :=
  (dat2 V c).arrAt_eq_of_cover 2 (target (V c main_v60) (V c main_arg6)) (fun t _ => flushed_eq V c t) cover

end Cert.KernelIdeal.Lin2

end
-- ==== Proof.Stages.lean ====
import proofs.«167802_j54176717472198_1_alg».proof.Proof.Gen.KernelIdeal.Launch
import proofs.«167802_j54176717472198_1_alg».proof.Proof.Gen.ReferenceIdeal.Read
import Idealize.ShloMosaic.Lib.StableHlo.Run

/-!
# The kernel program's host stretches are the reference's operations

Between its three Pallas calls the kernel's program runs the same host operations as the reference: from the
edge list, the sources and destinations with a self loop per node appended, the degree of each node as a
scatter-add of ones, the symmetric normalisation `rsqrt(deg[s]) * rsqrt(deg[d])` per edge; after each product, the
gather of its rows at the sources, scaled by the normalisation, scatter-added at the destinations, plus the bias;
at the end the class bias. Each stretch is read here as a function of what its input buffers hold: if those hold
the reference's values, its output buffer holds the reference's next value. (The kernel computes the edge
quantities once; the reference recomputes them for its second layer, as the same terms.) A buffer no operation of
a stretch writes keeps its contents.
-/

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (W : Valuation τ sig (Elt Ideal))

/-! ## The reference recomputes the edge quantities as the same terms -/

theorem src_again (x1 : (⟨Cert.ReferenceIdeal.S2x1600000, .i32⟩ : BufTy).Contents (Elt Ideal)) :
    Cert.ReferenceIdeal.Read.val_main_v47 (F := Ideal) x1 = Cert.ReferenceIdeal.Read.val_main_v6 (F := Ideal) x1 := rfl
theorem dst_again (x1 : (⟨Cert.ReferenceIdeal.S2x1600000, .i32⟩ : BufTy).Contents (Elt Ideal)) :
    Cert.ReferenceIdeal.Read.val_main_v48 (F := Ideal) x1 = Cert.ReferenceIdeal.Read.val_main_v7 (F := Ideal) x1 := rfl
theorem norm_again (x1 : (⟨Cert.ReferenceIdeal.S2x1600000, .i32⟩ : BufTy).Contents (Elt Ideal)) :
    Cert.ReferenceIdeal.Read.val_main_v68 (F := Ideal) x1 = Cert.ReferenceIdeal.Read.val_main_v27 (F := Ideal) x1 := rfl

/-! ## Before the first call: the edge quantities, from the edge list alone -/

theorem src_eq : after (hostOps0 (F := Ideal)) W (Proc.devRef .tc main_v5) = Cert.ReferenceIdeal.Read.val_main_v6 (F := Ideal) (W (Proc.devRef .tc main_arg1)) := by
  after_results_simp <;> rfl
theorem dst_eq : after (hostOps0 (F := Ideal)) W (Proc.devRef .tc main_v6) = Cert.ReferenceIdeal.Read.val_main_v7 (F := Ideal) (W (Proc.devRef .tc main_arg1)) := by
  after_results_simp <;> rfl
theorem norm_eq : after (hostOps0 (F := Ideal)) W (Proc.devRef .tc main_v26) = Cert.ReferenceIdeal.Read.val_main_v27 (F := Ideal) (W (Proc.devRef .tc main_arg1)) := by
  after_results_simp <;> rfl
theorem keep0_arg0 : after (hostOps0 (F := Ideal)) W (Proc.devRef .tc main_arg0) = W (Proc.devRef .tc main_arg0) := by
  after_results_simp <;> rfl
theorem keep0_arg1 : after (hostOps0 (F := Ideal)) W (Proc.devRef .tc main_arg1) = W (Proc.devRef .tc main_arg1) := by
  after_results_simp <;> rfl
theorem keep0_arg2 : after (hostOps0 (F := Ideal)) W (Proc.devRef .tc main_arg2) = W (Proc.devRef .tc main_arg2) := by
  after_results_simp <;> rfl
theorem keep0_arg3 : after (hostOps0 (F := Ideal)) W (Proc.devRef .tc main_arg3) = W (Proc.devRef .tc main_arg3) := by
  after_results_simp <;> rfl
theorem keep0_arg4 : after (hostOps0 (F := Ideal)) W (Proc.devRef .tc main_arg4) = W (Proc.devRef .tc main_arg4) := by
  after_results_simp <;> rfl
theorem keep0_arg5 : after (hostOps0 (F := Ideal)) W (Proc.devRef .tc main_arg5) = W (Proc.devRef .tc main_arg5) := by
  after_results_simp <;> rfl
theorem keep0_arg6 : after (hostOps0 (F := Ideal)) W (Proc.devRef .tc main_arg6) = W (Proc.devRef .tc main_arg6) := by
  after_results_simp <;> rfl
theorem keep0_arg7 : after (hostOps0 (F := Ideal)) W (Proc.devRef .tc main_arg7) = W (Proc.devRef .tc main_arg7) := by
  after_results_simp <;> rfl

/-! ## Between the first and second call: the first layer's aggregation plus bias -/

theorem layer1_eq (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x64, .f32⟩ : BufTy).Contents (Elt Ideal)) (x7 : (⟨Cert.ReferenceIdeal.S64, .f32⟩ : BufTy).Contents (Elt Ideal))
    (h27 : W (Proc.devRef .tc main_v27) = Cert.ReferenceIdeal.Read.val_main_v4 (F := Ideal) x0 x2)
    (h5 : W (Proc.devRef .tc main_v5) = Cert.ReferenceIdeal.Read.val_main_v6 (F := Ideal) x1) (h6 : W (Proc.devRef .tc main_v6) = Cert.ReferenceIdeal.Read.val_main_v7 (F := Ideal) x1)
    (h26 : W (Proc.devRef .tc main_v26) = Cert.ReferenceIdeal.Read.val_main_v27 (F := Ideal) x1) (h3 : W (Proc.devRef .tc main_arg3) = x3) :
    after (hostOps1 (F := Ideal)) W (Proc.devRef .tc main_v43) = Cert.ReferenceIdeal.Read.val_main_v43 (F := Ideal) x0 x1 x2 x3 := by
  after_results_simp
  rw [h27, h5, h6, h26, h3]
  rfl
theorem keep1_v5 : after (hostOps1 (F := Ideal)) W (Proc.devRef .tc main_v5) = W (Proc.devRef .tc main_v5) := by
  after_results_simp <;> rfl
theorem keep1_v6 : after (hostOps1 (F := Ideal)) W (Proc.devRef .tc main_v6) = W (Proc.devRef .tc main_v6) := by
  after_results_simp <;> rfl
theorem keep1_v26 : after (hostOps1 (F := Ideal)) W (Proc.devRef .tc main_v26) = W (Proc.devRef .tc main_v26) := by
  after_results_simp <;> rfl
theorem keep1_arg4 : after (hostOps1 (F := Ideal)) W (Proc.devRef .tc main_arg4) = W (Proc.devRef .tc main_arg4) := by
  after_results_simp <;> rfl
theorem keep1_arg5 : after (hostOps1 (F := Ideal)) W (Proc.devRef .tc main_arg5) = W (Proc.devRef .tc main_arg5) := by
  after_results_simp <;> rfl
theorem keep1_arg6 : after (hostOps1 (F := Ideal)) W (Proc.devRef .tc main_arg6) = W (Proc.devRef .tc main_arg6) := by
  after_results_simp <;> rfl
theorem keep1_arg7 : after (hostOps1 (F := Ideal)) W (Proc.devRef .tc main_arg7) = W (Proc.devRef .tc main_arg7) := by
  after_results_simp <;> rfl

/-! ## Between the second and third call: the second layer's aggregation plus bias -/

theorem layer2_eq (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x64, .f32⟩ : BufTy).Contents (Elt Ideal)) (x7 : (⟨Cert.ReferenceIdeal.S64, .f32⟩ : BufTy).Contents (Elt Ideal))
    (h44 : W (Proc.devRef .tc main_v44) = Cert.ReferenceIdeal.Read.val_main_v45 (F := Ideal) x0 x1 x2 x3 x4)
    (h5 : W (Proc.devRef .tc main_v5) = Cert.ReferenceIdeal.Read.val_main_v6 (F := Ideal) x1) (h6 : W (Proc.devRef .tc main_v6) = Cert.ReferenceIdeal.Read.val_main_v7 (F := Ideal) x1)
    (h26 : W (Proc.devRef .tc main_v26) = Cert.ReferenceIdeal.Read.val_main_v27 (F := Ideal) x1) (h5' : W (Proc.devRef .tc main_arg5) = x5) :
    after (hostOps2 (F := Ideal)) W (Proc.devRef .tc main_v60) = Cert.ReferenceIdeal.Read.val_main_v84 (F := Ideal) x0 x1 x2 x3 x4 x5 := by
  after_results_simp
  rw [h44, h5, h6, h26, h5', ← src_again, ← dst_again, ← norm_again]
  rfl
theorem keep2_arg6 : after (hostOps2 (F := Ideal)) W (Proc.devRef .tc main_arg6) = W (Proc.devRef .tc main_arg6) := by
  after_results_simp <;> rfl
theorem keep2_arg7 : after (hostOps2 (F := Ideal)) W (Proc.devRef .tc main_arg7) = W (Proc.devRef .tc main_arg7) := by
  after_results_simp <;> rfl

/-! ## After the third call: the class bias -/

theorem logits_eq (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x64, .f32⟩ : BufTy).Contents (Elt Ideal)) (x7 : (⟨Cert.ReferenceIdeal.S64, .f32⟩ : BufTy).Contents (Elt Ideal))
    (h61 : W (Proc.devRef .tc main_v61) = Cert.ReferenceIdeal.Read.val_main_v86 (F := Ideal) x0 x1 x2 x3 x4 x5 x6) (h7 : W (Proc.devRef .tc main_arg7) = x7) :
    after (hostOps3 (F := Ideal)) W (Proc.devRef .tc main_v64) = Cert.ReferenceIdeal.Read.val_main_v89 (F := Ideal) x0 x1 x2 x3 x4 x5 x6 x7 := by
  after_results_simp
  rw [h61, h7]
  rfl

end Cert.KernelIdeal.Stages

end
-- ==== Proof.KernelValue.lean ====
import proofs.«167802_j54176717472198_1_alg».proof.Proof.Gen.KernelIdeal.Frame
import proofs.«167802_j54176717472198_1_alg».proof.Proof.Lin0
import proofs.«167802_j54176717472198_1_alg».proof.Proof.Lin1
import proofs.«167802_j54176717472198_1_alg».proof.Proof.Lin2
import proofs.«167802_j54176717472198_1_alg».proof.Proof.Stages

/-!
# The kernel program's result is the reference's value

The buffer contents are threaded through the program's seven stretches. Going down the stretches: the edge
quantities after the first host stretch are the reference's; the first call leaves `x · W1`; the next host stretch
aggregates it over the edges and adds `b1`; the second call leaves `relu(·) · W2` of that; the next stretch
aggregates again and adds `b2`; the third call leaves `relu(·) · Wc`; the last stretch adds `bc`. At every step
the buffer a stretch reads holds the reference's value of the same quantity, so the step's output does; a
buffer that a stretch does not write (the arguments, the edge quantities) is carried unchanged to where it is read.
-/

set_option maxRecDepth 16384

noncomputable section

namespace Cert.KernelIdeal.ValueV

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, carried to where they are read -/

theorem arg0_at1 : W1 m ρ c (Proc.devRef .tc main_arg0) = (m ((c : Thread nD τ).loc main_arg0)) := Stages.keep0_arg0 (W0 m ρ c)
theorem arg2_at1 : W1 m ρ c (Proc.devRef .tc main_arg2) = (m ((c : Thread nD τ).loc main_arg2)) := Stages.keep0_arg2 (W0 m ρ c)
theorem arg3_at2 : W2 m ρ c (Proc.devRef .tc main_arg3) = (m ((c : Thread nD τ).loc main_arg3)) :=
  (W2_of_ne m ρ c main_arg3 (by decide)).trans (Stages.keep0_arg3 (W0 m ρ c))
theorem arg4_at3 : W3 m ρ c (Proc.devRef .tc main_arg4) = (m ((c : Thread nD τ).loc main_arg4)) :=
  (Stages.keep1_arg4 (W2 m ρ c)).trans ((W2_of_ne m ρ c main_arg4 (by decide)).trans (Stages.keep0_arg4 (W0 m ρ c)))
theorem arg5_at4 : W4 m ρ c (Proc.devRef .tc main_arg5) = (m ((c : Thread nD τ).loc main_arg5)) :=
  (W4_of_ne m ρ c main_arg5 (by decide)).trans ((Stages.keep1_arg5 (W2 m ρ c)).trans
    ((W2_of_ne m ρ c main_arg5 (by decide)).trans (Stages.keep0_arg5 (W0 m ρ c))))
theorem arg6_at5 : W5 m ρ c (Proc.devRef .tc main_arg6) = (m ((c : Thread nD τ).loc main_arg6)) :=
  (Stages.keep2_arg6 (W4 m ρ c)).trans ((W4_of_ne m ρ c main_arg6 (by decide)).trans ((Stages.keep1_arg6 (W2 m ρ c)).trans
    ((W2_of_ne m ρ c main_arg6 (by decide)).trans (Stages.keep0_arg6 (W0 m ρ c)))))
theorem arg7_at6 : W6 m ρ c (Proc.devRef .tc main_arg7) = (m ((c : Thread nD τ).loc main_arg7)) :=
  (W6_of_ne m ρ c main_arg7 (by decide)).trans ((Stages.keep2_arg7 (W4 m ρ c)).trans ((W4_of_ne m ρ c main_arg7 (by decide)).trans
    ((Stages.keep1_arg7 (W2 m ρ c)).trans ((W2_of_ne m ρ c main_arg7 (by decide)).trans (Stages.keep0_arg7 (W0 m ρ c))))))

/-! ## The edge quantities, computed once and carried to both layers -/

theorem src_at2 : W2 m ρ c (Proc.devRef .tc main_v5) = Cert.ReferenceIdeal.Read.val_main_v6 (F := Ideal) (m ((c : Thread nD τ).loc main_arg1)) :=
  (W2_of_ne m ρ c main_v5 (by decide)).trans (Stages.src_eq (W0 m ρ c))
theorem dst_at2 : W2 m ρ c (Proc.devRef .tc main_v6) = Cert.ReferenceIdeal.Read.val_main_v7 (F := Ideal) (m ((c : Thread nD τ).loc main_arg1)) :=
  (W2_of_ne m ρ c main_v6 (by decide)).trans (Stages.dst_eq (W0 m ρ c))
theorem norm_at2 : W2 m ρ c (Proc.devRef .tc main_v26) = Cert.ReferenceIdeal.Read.val_main_v27 (F := Ideal) (m ((c : Thread nD τ).loc main_arg1)) :=
  (W2_of_ne m ρ c main_v26 (by decide)).trans (Stages.norm_eq (W0 m ρ c))
theorem src_at4 : W4 m ρ c (Proc.devRef .tc main_v5) = Cert.ReferenceIdeal.Read.val_main_v6 (F := Ideal) (m ((c : Thread nD τ).loc main_arg1)) :=
  (W4_of_ne m ρ c main_v5 (by decide)).trans ((Stages.keep1_v5 (W2 m ρ c)).trans (src_at2 m ρ c))
theorem dst_at4 : W4 m ρ c (Proc.devRef .tc main_v6) = Cert.ReferenceIdeal.Read.val_main_v7 (F := Ideal) (m ((c : Thread nD τ).loc main_arg1)) :=
  (W4_of_ne m ρ c main_v6 (by decide)).trans ((Stages.keep1_v6 (W2 m ρ c)).trans (dst_at2 m ρ c))
theorem norm_at4 : W4 m ρ c (Proc.devRef .tc main_v26) = Cert.ReferenceIdeal.Read.val_main_v27 (F := Ideal) (m ((c : Thread nD τ).loc main_arg1)) :=
  (W4_of_ne m ρ c main_v26 (by decide)).trans ((Stages.keep1_v26 (W2 m ρ c)).trans (norm_at2 m ρ c))

/-! ## Down the stretches -/

/-- The first call leaves `x · W1`. -/
theorem proj1 : W2 m ρ c (Proc.devRef .tc main_v27) = Cert.ReferenceIdeal.Read.val_main_v4 (F := Ideal) (m ((c : Thread nD τ).loc main_arg0)) (m ((c : Thread nD τ).loc main_arg2)) := by
  refine (W2_arr m ρ c 2).trans ((Lin0.array_eq (V1 m ρ) c).trans ?_)
  show Lin0.target (W1 m ρ c (Proc.devRef .tc main_arg0)) (W1 m ρ c (Proc.devRef .tc main_arg2)) = _
  rw [arg0_at1, arg2_at1]
  rfl

/-- The first layer before its activation. -/
theorem layer1 : W3 m ρ c (Proc.devRef .tc main_v43) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) :=
  Stages.layer1_eq (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (proj1 m ρ c) (src_at2 m ρ c) (dst_at2 m ρ c) (norm_at2 m ρ c) (arg3_at2 m ρ c)

/-- The second call leaves `relu(layer 1) · W2`. -/
theorem proj2 : W4 m ρ c (Proc.devRef .tc main_v44) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 2).trans ((Lin1.array_eq (V3 m ρ) c).trans ?_)
  show Lin1.target (W3 m ρ c (Proc.devRef .tc main_v43)) (W3 m ρ c (Proc.devRef .tc main_arg4)) = _
  rw [layer1, arg4_at3]
  rfl

/-- The second layer before its activation. -/
theorem layer2 : W5 m ρ c (Proc.devRef .tc main_v60) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stages.layer2_eq (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (proj2 m ρ c) (src_at4 m ρ c) (dst_at4 m ρ c) (norm_at4 m ρ c) (arg5_at4 m ρ c)

/-- The third call leaves `relu(layer 2) · Wc`. -/
theorem proj3 : W6 m ρ c (Proc.devRef .tc main_v61) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 2).trans ((Lin2.array_eq (V5 m ρ) c).trans ?_)
  show Lin2.target (W5 m ρ c (Proc.devRef .tc main_v60)) (W5 m ρ c (Proc.devRef .tc main_arg6)) = _
  rw [layer2, arg6_at5]
  rfl

/-- The program's result: the reference's logits of the launch arguments. -/
theorem result : W7 m ρ c (Proc.devRef .tc main_v64) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stages.logits_eq (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (proj3 m ρ c) (arg7_at6 m ρ c)

end Cert.KernelIdeal.ValueV

end
-- ==== Proof.lean ====
/-
  A two-layer graph convolution with a linear classifier, its three dense projections as Pallas calls, against
  the plain jnp reference.

  Both programs compute, from the edge list, the sources and destinations with a self loop per node, the node
  degrees by a scatter-add of ones and the per-edge normalisation `rsqrt(deg[s]) · rsqrt(deg[d])`; then twice
  "project, gather the rows at the sources, scale, scatter-add at the destinations, add the bias", and a last
  projection plus bias. The kernel's program differs only in HOW the three projections are computed: each is a
  grid of twenty 5000-row blocks, the block's rows (clamped at zero for the second and third, which fuses the
  reference's relu) multiplied by the whole weight into a zero accumulator after rounding both to bf16. Over the
  extended reals the rounding is the identity and a block's entry is the same sum `∑ k, a(r,k) · w(k,c)` the host's
  contraction has at that row, and the blocks tile the rows: each call leaves exactly the reference's projection
  (Proof/Lin0, Lin1, Lin2). The host operations around the calls are the reference's own, applied to equal
  operands (Proof/Stages), so by induction down the program the result buffer holds the reference's value
  (Proof/KernelValue), which the run of the program's seven stretches delivers (Proof/KernelRun). No algebraic law
  beyond reading both sums at the same indices is used, so the finiteness of the inputs is never opened.
-/
import proofs.«167802_j54176717472198_1_alg».proof.Defs
import proofs.«167802_j54176717472198_1_alg».proof.Proof.Gen.Kernel
import proofs.«167802_j54176717472198_1_alg».proof.Proof.Gen.Kernel.Frame
import proofs.«167802_j54176717472198_1_alg».proof.Proof.Gen.KernelIdeal
import proofs.«167802_j54176717472198_1_alg».proof.Proof.Gen.KernelIdeal.Frame
import proofs.«167802_j54176717472198_1_alg».proof.Proof.Gen.ReferenceIdeal
import proofs.«167802_j54176717472198_1_alg».proof.Proof.Gen.ReferenceIdeal.Run
import proofs.«167802_j54176717472198_1_alg».proof.Proof.Gen.ReferenceIdeal.Read
import proofs.«167802_j54176717472198_1_alg».proof.Proof.Gen.Pre_finite_inputs
import proofs.«167802_j54176717472198_1_alg».proof.Proof.KernelRun
import proofs.«167802_j54176717472198_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments (the generated frame). -/
theorem frame_k : Cert.frame_Kernel := fun m ρ _ => Cert.Kernel.Gen.frame m ρ

/-- The idealized kernel program runs and keeps its arguments (the generated frame). -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's logits of those arguments. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ValueV.result m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v89_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
